-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S1024x64 : Shape := ⟨2, ![1024, 64]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4096x64 .f32) (main_arg1 : FVec F S1024x64 .f32) (main_arg2 : IVec S4096 32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S4096x64 : Shape := ⟨2, ![4096, 64]⟩
abbrev S1024x64 : Shape := ⟨2, ![1024, 64]⟩
abbrev S4096 : Shape := ⟨1, ![4096]⟩
abbrev S64x64 : Shape := ⟨2, ![64, 64]⟩
abbrev S512x64 : Shape := ⟨2, ![512, 64]⟩
abbrev S1x64 : Shape := ⟨2, ![1, 64]⟩
abbrev S64 : Shape := ⟨1, ![64]⟩
abbrev S_ : Shape := ⟨0, ![]⟩
abbrev S4096x1 : Shape := ⟨2, ![4096, 1]⟩

abbrev nBuf : Space → Nat
  | .hbm => 21
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S1024x64, .f32⟩
  | .hbm, ⟨2, _⟩ => ⟨S4096, .i32⟩
  | .hbm, ⟨3, _⟩ => ⟨S1024x64, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .i32⟩
  | .hbm, ⟨14, _⟩ => ⟨S1x64, .i32⟩
  | .hbm, ⟨15, _⟩ => ⟨S4096x1, .i32⟩
  | .hbm, ⟨16, _⟩ => ⟨S4096x64, .i32⟩
  | .hbm, ⟨17, _⟩ => ⟨S4096x64, .i32⟩
  | .hbm, ⟨18, _⟩ => ⟨S4096x64, .i1⟩
  | .hbm, ⟨19, _⟩ => ⟨S4096x64, .f32⟩
  | .hbm, ⟨20, _⟩ => ⟨S4096x64, .f32⟩
  | .local _ .vmem, ⟨0, _⟩ => ⟨S64x64, .f32⟩
  | .local _ .vmem, ⟨1, _⟩ => ⟨S64x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_4 : BitVec 32 := 0#32
  let c64_i32 : BitVec 32 := 64#32
  let v5 : BitVec 32 := Scalar.addi c0_i32_4 c64_i32
  let c1_i32 : BitVec 32 := 1#32
  ⟨c0_i32_4, v5, c1_i32⟩
def k0_off1 (k0_t1 : Fin k0_t1_loop.trips) : Fin 2 → Nat :=
  let c0_i32_4 : BitVec 32 := 0#32
  let c1_i32 : BitVec 32 := 1#32
  let arg6 : BitVec 32 := Scf.iv c0_i32_4 c1_i32 k0_t1
  let v13 : Index := Scalar.indexCast arg6
  let c0_9 : Index := 0#32
  ![v13.toNat, 0]
def k0_cond2 (i : grid0.Coords) : BitVec 1 :=
  let arg1 : BitVec 32 := BitVec.ofNat 32 (i 1).val
  let c63_i32 : BitVec 32 := 63#32
  let v10 : BitVec 1 := Scalar.cmpi .eq arg1 c63_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x64_S512x64_0_0 : ∀ a, (![0, 0] : Fin 2 → Nat) a + S512x64.size a ≤ S512x64.size a
  h_S512x64 : 0 < S512x64.numel
  shapeCasts_S512x64_S512x64 : S512x64.ShapeCasts S512x64
  h_S1x64 : 0 < S1x64.numel
  shapeCasts_S1x64_S64 : S1x64.ShapeCasts S64
  shapeCasts_S64_S1x64 : S64.ShapeCasts S1x64
  broadcasts_S1x64_S512x64 : S1x64.Broadcasts S512x64
  reducesTo_S1024x64_S64_d0 : S1024x64.ReducesTo [0] S64
  h_S_ : 0 < S_.numel
  bcast_S_S64 : S_.BroadcastsInDim S64 (![] : Fin 0 → Fin S64.rank)
  reducesTo_S64_S_d0 : S64.ReducesTo [0] S_
  bcast_S64_S1x64_1 : S64.BroadcastsInDim S1x64 (![1] : Fin 1 → Fin S1x64.rank)
  bcast_S4096_S4096x1_0 : S4096.BroadcastsInDim S4096x1 (![0] : Fin 1 → Fin S4096x1.rank)
  bcast_S1x64_S4096x64_0_1 : S1x64.BroadcastsInDim S4096x64 (![0, 1] : Fin 2 → Fin S4096x64.rank)
  bcast_S4096x1_S4096x64_0_1 : S4096x1.BroadcastsInDim S4096x64 (![0, 1] : Fin 2 → Fin S4096x64.rank)
  hrank0 : 0 < grid0.rank
  k0_t1_ok : k0_t1_loop.OK
  k0_off1_inb : ∀ k0_t1 : Fin k0_t1_loop.trips, ∀ a, (k0_off1 k0_t1) a + S1x64.size a ≤ S64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S4096x64.size a
  hwx0_0 : ∀ i : grid0.Coords, EltTy.bits .f32 = 32 ∨ (Rect.block (s := S4096x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S1024x64.size a
  hwx0_1 : ∀ i : grid0.Coords, EltTy.bits .f32 = 32 ∨ (Rect.block (s := S1024x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S1024x64.size a
  hwx0_2 : ∀ i : grid0.Coords, EltTy.bits .f32 = 32 ∨ (Rect.block (s := S1024x64) S512x64.size (cc0_transform_2 i) (hinb0_2 i)).WholeWords (EltTy.packing .f32)

variable [Facts₀]

abbrev win0_0 : Pipeline.Window sig grid0 :=
  Pipeline.Window.ofSpec (Memref.whole main_arg0) S64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x64 : Shape := ⟨2, ![4096, 64]⟩
abbrev S1024x64 : Shape := ⟨2, ![1024, 64]⟩
abbrev S4096 : Shape := ⟨1, ![4096]⟩
abbrev S4096x1x64 : Shape := ⟨3, ![4096, 1, 64]⟩
abbrev S1x1024x64 : Shape := ⟨3, ![1, 1024, 64]⟩
abbrev S4096x1024x64 : Shape := ⟨3, ![4096, 1024, 64]⟩
abbrev S_ : Shape := ⟨0, ![]⟩
abbrev S64 : Shape := ⟨1, ![64]⟩
abbrev S1x64 : Shape := ⟨2, ![1, 64]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1024x64, .f32⟩
  | .hbm, ⟨2, _⟩ => ⟨S4096, .i32⟩
  | .hbm, ⟨3, _⟩ => ⟨S4096x1x64, .f32⟩
  | .hbm, ⟨4, _⟩ => ⟨S1x1024x64, .f32⟩
  | .hbm, ⟨5, _⟩ => ⟨S4096x1024x64, .f32⟩
  | .hbm, ⟨6, _⟩ => ⟨S4096x1024x64, .f32⟩
  | .hbm, ⟨7, _⟩ => ⟨S4096x1024x64, .f32⟩
  | .hbm, ⟨8, _⟩ => ⟨S4096x1024x64, .f32⟩
  | .hbm, ⟨9, _⟩ => ⟨S_, .f32⟩
  | .hbm, ⟨10, _⟩ => ⟨S1024x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .i32⟩
  | .hbm, ⟨21, _⟩ => ⟨S1x64, .i32⟩
  | .hbm, ⟨22, _⟩ => ⟨S4096x1, .i32⟩
  | .hbm, ⟨23, _⟩ => ⟨S4096x64, .i32⟩
  | .hbm, ⟨24, _⟩ => ⟨S4096x64, .i32⟩
  | .hbm, ⟨25, _⟩ => ⟨S4096x64, .i1⟩
  | .hbm, ⟨26, _⟩ => ⟨S4096x64, .f32⟩
  | .hbm, ⟨27, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S4096x64_S4096x1x64_0_2 : S4096x64.BroadcastsInDim S4096x1x64 (![0, 2] : Fin 2 → Fin S4096x1x64.rank)
  bcast_S1024x64_S1x1024x64_1_2 : S1024x64.BroadcastsInDim S1x1024x64 (![1, 2] : Fin 2 → Fin S1x1024x64.rank)
  bcast_S4096x1x64_S4096x1024x64_0_1_2 : S4096x1x64.BroadcastsInDim S4096x1024x64 (![0, 1, 2] : Fin 3 → Fin S4096x1024x64.rank)
  bcast_S1x1024x64_S4096x1024x64_0_1_2 : S1x1024x64.BroadcastsInDim S4096x1024x64 (![0, 1, 2] : Fin 3 → Fin S4096x1024x64.rank)
  reducesTo_S4096x1024x64_S1024x64_d0 : S4096x1024x64.ReducesTo [0] S1024x64
  h_S_ : 0 < S_.numel
  reducesTo_S1024x64_S64_d0 : S1024x64.ReducesTo [0] S64
  bcast_S_S64 : S_.BroadcastsInDim S64 (![] : Fin 0 → Fin S64.rank)
  reducesTo_S64_S_d0 : S64.ReducesTo [0] S_
  bcast_S64_S1x64_1 : S64.BroadcastsInDim S1x64 (![1] : Fin 1 → Fin S1x64.rank)
  bcast_S4096_S4096x1_0 : S4096.BroadcastsInDim S4096x1 (![0] : Fin 1 → Fin S4096x1.rank)
  bcast_S1x64_S4096x64_0_1 : S1x64.BroadcastsInDim S4096x64 (![0, 1] : Fin 2 → Fin S4096x64.rank)
  bcast_S4096x1_S4096x64_0_1 : S4096x1.BroadcastsInDim S4096x64 (![0, 1] : Fin 2 → Fin S4096x64.rank)

variable [Facts₀]

class Facts : Prop extends Facts₀ where

variable [Facts]
-- ==== Proof.RunsBits.lean ====
/-
  The kernel body of the running minimum, run once per kind of grid point.

  The grid is (2, 64): point `t` has column-tile `t / 64` of the second operand and row-tile `k = t % 64` of the
  first. The body resets the scratch accumulator to +inf when `k = 0`, folds the 64 rows of the current row-tile
  into it (a counted loop carrying the accumulator in registers), stores it back, and copies it to the output
  block when `k = 63`. So a point is of one of three kinds: first (`k = 0`), middle, last (`k = 63`), and the
  body is run symbolically once per kind, on whole staging memrefs at arbitrary contents. What each run leaves in
  the scratch (and, at a last point, in the output block) is a list of stored pieces that the run itself finds.
-/
import proofs.«139658_j40853728919873_1_alg».proof.Proof.Gen.Kernel.Frame
import proofs.«139658_j40853728919873_1_alg».proof.Proof.Gen.Kernel.Loops

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The body's first conditional: the row-tile coordinate is zero. -/
abbrev isFirst (i : grid0.Coords) : Prop :=
  (Scalar.cmpi .ne (Scalar.extui (Scalar.cmpi .eq (BitVec.ofNat 32 (i 1).val) 0#32)) 0#32) = 1#1
/-- The body's second conditional: the row-tile coordinate is the last one. -/
abbrev isLast (i : grid0.Coords) : Prop := k0_cond2 i = 1#1

theorem isFirst_iff : ∀ t : Fin cfg0.N, isFirst (grid0.coords t) ↔ t.val % 64 = 0 :=
  (by decide +kernel : ∀ t : Fin grid0.N, isFirst (grid0.coords t) ↔ t.val % 64 = 0)
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a last point the output block is not stored into, -/
theorem idle_2 : ∀ t : Fin cfg0.N, ¬isLast (grid0.coords t) → cfg0.idle 2 (grid0.coords t) = true := by decide +kernel
/-- nor written back; -/
theorem noFlush_2 : ∀ t : Fin cfg0.N, ¬isLast (grid0.coords t) → (cfg0.win 2).flush t = false := by decide +kernel
/-- at a last point it is stored into. -/
theorem live_2 : ∀ t : Fin cfg0.N, isLast (grid0.coords t) → cfg0.idle 2 (grid0.coords t) = false := by decide +kernel

/-! ## The memrefs the pipeline calls the body with -/

abbrev mZ (t : Fin cfg0.N) : Memref sig .tc .vmem S64x64 .f32 := win0_0.stage (cfg0.slots t 0)
abbrev hZ (t : Fin cfg0.N) : (mZ t).IsWhole := hstage0_0 ((cfg0.slots t 0).cast nbuf0_0)
abbrev mE (t : Fin cfg0.N) : Memref sig .tc .vmem S512x64 .f32 := win0_1.stage (cfg0.slots t 1)
abbrev hE (t : Fin cfg0.N) : (mE t).IsWhole := hstage0_1 ((cfg0.slots t 1).cast nbuf0_1)
abbrev mO (t : Fin cfg0.N) : Memref sig .tc .vmem S512x64 .f32 := win0_2.stage (cfg0.slots t 2)
abbrev hO (t : Fin cfg0.N) : (mO t).IsWhole := hstage0_2 ((cfg0.slots t 2).cast nbuf0_2)
/-- The scratch accumulator: a whole scoped buffer of the kernel's own. -/
abbrev mAcc : Memref sig .tc .vmem S512x64 .f32 := Memref.whole cc0_scratch0
/-- The views through which the accumulator's and the output block's contents are stated. -/
abbrev vAcc : View sig .tc .vmem S512x64 .f32 := mAcc.view
abbrev vOut : View sig .tc .vmem S512x64 .f32 := (Memref.whole cc0_stg2_0 : Memref sig .tc .vmem S512x64 .f32).view

/-- The region invariant of the launch, with the scratch as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

/-! ## The three runs -/

set_option maxHeartbeats 1000000 in
/-- A FIRST point (`k = 0`, not last): the accumulator is reset, the row-tile folded in, the result stored
    back; the output block is left as it was. `LS`: the pieces the scratch ends with. -/
noncomputable def runFirst (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : isFirst i) (hl : ¬isLast i)
    (x0 : Vec F S64x64 .f32) (x1 : Vec F S512x64 .f32) :
    { LS : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, fun xo E K => ?run⟩
  case run =>
    simp only [cc0__min_sqdist_kernel_eq_skeleton]; unfold cc0__min_sqdist_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE point (`0 < k < 63`): the row-tile is folded into the accumulator the point before left. -/
noncomputable def runMid (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : ¬isFirst i) (hl : ¬isLast i)
    (x0 : Vec F S64x64 .f32) (x1 : Vec F S512x64 .f32) (xs : Vec F S512x64 .f32) :
    { LS : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, fun xo E K => ?run⟩
  case run =>
    simp only [cc0__min_sqdist_kernel_eq_skeleton]; unfold cc0__min_sqdist_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1
    obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A LAST point (`k = 63`, not first): as a middle point, and the stored accumulator is copied to the output
    block. `LO`: the pieces the output block ends with. -/
noncomputable def runLast (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : ¬isFirst i) (hl : isLast i)
    (x0 : Vec F S64x64 .f32) (x1 : Vec F S512x64 .f32) (xs : Vec F S512x64 .f32) :
    Σ' (LO : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, ?_, fun E K => ?run⟩
  case run =>
    simp only [cc0__min_sqdist_kernel_eq_skeleton]; unfold cc0__min_sqdist_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Body

end
-- ==== Proof.FrameBits.lean ====
/-
  The frame of the running-minimum kernel: what the scratch accumulator and the output block hold after each
  grid point, the proof data of the pipeline, the body obligation at every point, and the run of the whole program.

  After a first point the accumulator holds what the reset and the fold of that row-tile leave; after any later
  point what the fold leaves over the contents the point before left; at a last point the output block receives
  the accumulator. Each of these is the list of stored pieces the body's run finds, read back; the pieces cover
  the buffer, so the reading does not depend on what the buffer held. The invariant of the region is, before the
  first point, the scratch at anything; afterwards the scratch at what the point before left.
-/
import proofs.«139658_j40853728919873_1_alg».proof.Proof.RunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The pieces a first point stores into the accumulator cover it. -/
theorem coverFirst (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S64x64 .f32) (x1 : Vec F S512x64 .f32) (y : S512x64.Idx) :
    ∃ pc ∈ (runFirst c i arg2 harg2 arg3 harg3 arg4 harg4 arg5 harg5 hf hl x0 x1).1, y ∈ pc.1.set :=
  View.cover_of_tiledL (runFirst c i arg2 harg2 arg3 harg3 arg4 harg4 arg5 harg5 hf hl x0 x1).1 S512x64.size (by sl_kernel_rfl) y

/-- The accumulator after a first point: its pieces read back. -/
def accFirst (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S64x64 .f32) (x1 : Vec F S512x64 .f32) : Vec F S512x64 .f32 :=
  vAcc.read (Elt F) (vAcc.writes (Elt F) vAcc.junk (runFirst c i arg2 harg2 arg3 harg3 arg4 harg4 arg5 harg5 hf hl x0 x1).1)

/-- The pieces a middle point stores into the accumulator cover it. -/
theorem coverMid (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S64x64 .f32) (x1 : Vec F S512x64 .f32) (xs : Vec F S512x64 .f32) (y : S512x64.Idx) :
    ∃ pc ∈ (runMid c i arg2 harg2 arg3 harg3 arg4 harg4 arg5 harg5 hf hl x0 x1 xs).1, y ∈ pc.1.set :=
  View.cover_of_tiledL (runMid c i arg2 harg2 arg3 harg3 arg4 harg4 arg5 harg5 hf hl x0 x1 xs).1 S512x64.size (by sl_kernel_rfl) y

/-- The accumulator after a middle point, over the contents `xs` it was found with. -/
def accMid (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S64x64 .f32) (x1 : Vec F S512x64 .f32) (xs : Vec F S512x64 .f32) : Vec F S512x64 .f32 :=
  vAcc.read (Elt F) (vAcc.writes (Elt F) vAcc.junk (runMid c i arg2 harg2 arg3 harg3 arg4 harg4 arg5 harg5 hf hl x0 x1 xs).1)

/-- The pieces a last point stores into the output block cover it, -/
theorem coverLastOut (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) (y : S512x64.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S512x64.size (by sl_kernel_rfl) y

/-- and those it stores into the accumulator cover that. -/
theorem coverLastAcc (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) (y : S512x64.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S512x64.size (by sl_kernel_rfl) y

/-- The output block after a last point. -/
def outLast (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) : Vec F S512x64 .f32 :=
  vOut.read (Elt F) (vOut.writes (Elt F) vOut.junk (runLast c i arg2 harg2 arg3 harg3 arg4 harg4 arg5 harg5 hf hl x0 x1 xs).1)

/-- The accumulator after a last point. -/
def accLast (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) : Vec F S512x64 .f32 :=
  vAcc.read (Elt F) (vAcc.writes (Elt F) vAcc.junk (runLast c i arg2 harg2 arg3 harg3 arg4 harg4 arg5 harg5 hf hl x0 x1 xs).2.1)

/-- Away from a last point the output block is not stored into and not written back: a placeholder nothing reads. -/
def outIdle : Vec F S512x64 .f32 := vOut.read (Elt F) (vOut.writes (Elt F) vOut.junk [])

/-! ## What the output block and the accumulator hold after each point -/

/-- After the body at position `n`: the output block's staging buffer and the accumulator, by recursion on the
    position — the kind of point selects the run, a later point starts from what the one before left. -/
def outsAt (c : Dev nD) : (n : ℕ) → n < cfg0.N → Vec F S512x64 .f32 × Vec F S512x64 .f32
  | 0, hn => (outIdle, accFirst c (grid0.coords ⟨0, hn⟩) (mZ ⟨0, hn⟩) (hZ ⟨0, hn⟩) (mE ⟨0, hn⟩) (hE ⟨0, hn⟩) (mO ⟨0, hn⟩) (hO ⟨0, hn⟩) mAcc (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 64 = 0 then
      if h1 : (n + 1) % 64 = 63 then
        False.elim (by omega)
      else
        (outIdle, accFirst c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 64 = 63 then
        (outLast c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2, accLast c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2)
      else
        (outIdle, accMid c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 64 = 0) (h1 : ¬t.val % 64 = 63) :
    outsAt m c t.val t.isLt = (outIdle, accFirst c (grid0.coords t) (mZ t) (hZ t) (mE t) (hE t) (mO t) (hO t) mAcc (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 64 = 0) (h1 : ¬t.val % 64 = 63) :
    outsAt m c t.val t.isLt = (outIdle, accMid c (grid0.coords t) (mZ t) (hZ t) (mE t) (hE t) (mO t) (hO t) mAcc (Memref.isWhole_whole _) (fun h => h0 ((isFirst_iff t).mp h)) (fun h => h1 ((isLast_iff t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 64 = 0) (h1 : t.val % 64 = 63) :
    outsAt m c t.val t.isLt = (outLast c (grid0.coords t) (mZ t) (hZ t) (mE t) (hE t) (mO t) (hO t) mAcc (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2, accLast c (grid0.coords t) (mZ t) (hZ t) (mE t) (hE t) (mO t) (hO t) mAcc (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (the scratch at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) mAcc fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) mAcc fullShare ((outsAt m c (n - 1) (by omega)).2)) ∗ (∃ r, prngReg c r)) := by
  cases n with
  | zero => exact absurd rfl hz
  | succ n => rfl

/-! ## The pipeline's proof data -/

/-- The proof data on core `c`: the arrays as the region finds them; after the body each input's buffer at its
    block and the output's at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mZ t) fullShare ((dats m 0 c).before 0 t d))
    ∗ (∃ d, owns (c : Thread nD τ) (mE t) fullShare ((dats m 0 c).before 1 t d))
    ∗ (∃ d, owns (c : Thread nD τ) (mO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's kind selects the run; the invariant
    hands the run the accumulator (at anything before the very first point, else at what the point before left)
    and takes it back at this point's contents, which the covering pieces determine; away from a last point the
    output block's buffer goes through untouched, at a last point it comes back at the copied accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 64 = 0
  · have h1 : ¬t.val % 64 = 63 := by omega
    rw [show (dats m 0 c).leavesExact 0 t = owns (c : Thread nD τ) (mZ t) fullShare ((dats m 0 c).after 0 t) from by
      unfold Dat.leavesExact; rw [live_0 t], after_0]
    rw [show (dats m 0 c).leavesExact 1 t = owns (c : Thread nD τ) (mE t) fullShare ((dats m 0 c).after 1 t) from by
      unfold Dat.leavesExact; rw [live_1 t], after_1]
    rw [Dat.leavesExact_idle (dats m 0 c) 2 t (idle_2 t (fun h => h1 ((isLast_iff t).mp h))) (noFlush_2 t (fun h => h1 ((isLast_iff t).mp h)))]
    rw [outsAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    by_cases h1 : t.val % 64 = 63
    · rw [show (dats m 0 c).leavesExact 0 t = owns (c : Thread nD τ) (mZ t) fullShare ((dats m 0 c).after 0 t) from by
        unfold Dat.leavesExact; rw [live_0 t], after_0]
      rw [show (dats m 0 c).leavesExact 1 t = owns (c : Thread nD τ) (mE t) fullShare ((dats m 0 c).after 1 t) from by
        unfold Dat.leavesExact; rw [live_1 t], after_1]
      rw [show (dats m 0 c).leavesExact 2 t = owns (c : Thread nD τ) (mO t) fullShare ((dats m 0 c).after 2 t) from by
        unfold Dat.leavesExact; rw [live_2 t ((isLast_iff t).mpr h1)], after_2]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [show (dats m 0 c).leavesExact 0 t = owns (c : Thread nD τ) (mZ t) fullShare ((dats m 0 c).after 0 t) from by
        unfold Dat.leavesExact; rw [live_0 t], after_0]
      rw [show (dats m 0 c).leavesExact 1 t = owns (c : Thread nD τ) (mE t) fullShare ((dats m 0 c).after 1 t) from by
        unfold Dat.leavesExact; rw [live_1 t], after_1]
      rw [Dat.leavesExact_idle (dats m 0 c) 2 t (idle_2 t (fun h => h1 ((isLast_iff t).mp h))) (noFlush_2 t (fun h => h1 ((isLast_iff t).mp h)))]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of the program terminates without a fault,
    every array of the pipeline ends at what the proof data says was written back, and every other buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.RunsIdeal.lean ====
/-
  The kernel body of the running minimum, run once per kind of grid point.

  The grid is (2, 64): point `t` has column-tile `t / 64` of the second operand and row-tile `k = t % 64` of the
  first. The body resets the scratch accumulator to +inf when `k = 0`, folds the 64 rows of the current row-tile
  into it (a counted loop carrying the accumulator in registers), stores it back, and copies it to the output
  block when `k = 63`. So a point is of one of three kinds: first (`k = 0`), middle, last (`k = 63`), and the
  body is run symbolically once per kind, on whole staging memrefs at arbitrary contents. What each run leaves in
  the scratch (and, at a last point, in the output block) is a list of stored pieces that the run itself finds.
-/
import proofs.«139658_j40853728919873_1_alg».proof.Proof.Gen.KernelIdeal.Frame
import proofs.«139658_j40853728919873_1_alg».proof.Proof.Gen.KernelIdeal.Loops

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The body's first conditional: the row-tile coordinate is zero. -/
abbrev isFirst (i : grid0.Coords) : Prop :=
  (Scalar.cmpi .ne (Scalar.extui (Scalar.cmpi .eq (BitVec.ofNat 32 (i 1).val) 0#32)) 0#32) = 1#1
/-- The body's second conditional: the row-tile coordinate is the last one. -/
abbrev isLast (i : grid0.Coords) : Prop := k0_cond2 i = 1#1

theorem isFirst_iff : ∀ t : Fin cfg0.N, isFirst (grid0.coords t) ↔ t.val % 64 = 0 :=
  (by decide +kernel : ∀ t : Fin grid0.N, isFirst (grid0.coords t) ↔ t.val % 64 = 0)
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a last point the output block is not stored into, -/
theorem idle_2 : ∀ t : Fin cfg0.N, ¬isLast (grid0.coords t) → cfg0.idle 2 (grid0.coords t) = true := by decide +kernel
/-- nor written back; -/
theorem noFlush_2 : ∀ t : Fin cfg0.N, ¬isLast (grid0.coords t) → (cfg0.win 2).flush t = false := by decide +kernel
/-- at a last point it is stored into. -/
theorem live_2 : ∀ t : Fin cfg0.N, isLast (grid0.coords t) → cfg0.idle 2 (grid0.coords t) = false := by decide +kernel

/-! ## The memrefs the pipeline calls the body with -/

abbrev mZ (t : Fin cfg0.N) : Memref sig .tc .vmem S64x64 .f32 := win0_0.stage (cfg0.slots t 0)
abbrev hZ (t : Fin cfg0.N) : (mZ t).IsWhole := hstage0_0 ((cfg0.slots t 0).cast nbuf0_0)
abbrev mE (t : Fin cfg0.N) : Memref sig .tc .vmem S512x64 .f32 := win0_1.stage (cfg0.slots t 1)
abbrev hE (t : Fin cfg0.N) : (mE t).IsWhole := hstage0_1 ((cfg0.slots t 1).cast nbuf0_1)
abbrev mO (t : Fin cfg0.N) : Memref sig .tc .vmem S512x64 .f32 := win0_2.stage (cfg0.slots t 2)
abbrev hO (t : Fin cfg0.N) : (mO t).IsWhole := hstage0_2 ((cfg0.slots t 2).cast nbuf0_2)
/-- The scratch accumulator: a whole scoped buffer of the kernel's own. -/
abbrev mAcc : Memref sig .tc .vmem S512x64 .f32 := Memref.whole cc0_scratch0
/-- The views through which the accumulator's and the output block's contents are stated. -/
abbrev vAcc : View sig .tc .vmem S512x64 .f32 := mAcc.view
abbrev vOut : View sig .tc .vmem S512x64 .f32 := (Memref.whole cc0_stg2_0 : Memref sig .tc .vmem S512x64 .f32).view

/-- The region invariant of the launch, with the scratch as a memref owned at some contents. -/
theorem PhiA_eq (c : Dev nD) :
    (Pipeline.ΦA spec0 c : sProp 𝕄)
      = iprop(iprop((∃ d, owns (c : Thread nD τ) mAcc fullShare d)) ∗ (∃ r, prngReg c r)) := by
  unfold Pipeline.ΦA; rw [scopedRest0_eq]; simp only [mAcc, owns_whole]; try rfl

/-! ## The three runs -/

set_option maxHeartbeats 1000000 in
/-- A FIRST point (`k = 0`, not last): the accumulator is reset, the row-tile folded in, the result stored
    back; the output block is left as it was. `LS`: the pieces the scratch ends with. -/
noncomputable def runFirst (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : isFirst i) (hl : ¬isLast i)
    (x0 : Vec F S64x64 .f32) (x1 : Vec F S512x64 .f32) :
    { LS : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, fun xo E K => ?run⟩
  case run =>
    simp only [cc0__min_sqdist_kernel_eq_skeleton]; unfold cc0__min_sqdist_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE point (`0 < k < 63`): the row-tile is folded into the accumulator the point before left. -/
noncomputable def runMid (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : ¬isFirst i) (hl : ¬isLast i)
    (x0 : Vec F S64x64 .f32) (x1 : Vec F S512x64 .f32) (xs : Vec F S512x64 .f32) :
    { LS : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, fun xo E K => ?run⟩
  case run =>
    simp only [cc0__min_sqdist_kernel_eq_skeleton]; unfold cc0__min_sqdist_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1
    obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A LAST point (`k = 63`, not first): as a middle point, and the stored accumulator is copied to the output
    block. `LO`: the pieces the output block ends with. -/
noncomputable def runLast (c : Dev nD) (i : grid0.Coords)
    (arg2 : Memref sig .tc .vmem S64x64 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S512x64 .f32) (harg5 : arg5.IsWhole)
    (hf : ¬isFirst i) (hl : isLast i)
    (x0 : Vec F S64x64 .f32) (x1 : Vec F S512x64 .f32) (xs : Vec F S512x64 .f32) :
    Σ' (LO : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E
              (cc0__min_sqdist_kernel i arg2 harg2 arg3 harg3 arg4 harg4 arg5 harg5) K } := by
  refine ⟨?_, ?_, fun E K => ?run⟩
  case run =>
    simp only [cc0__min_sqdist_kernel_eq_skeleton]; unfold cc0__min_sqdist_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Body

end
-- ==== Proof.FrameIdeal.lean ====
/-
  The frame of the running-minimum kernel: what the scratch accumulator and the output block hold after each
  grid point, the proof data of the pipeline, the body obligation at every point, and the run of the whole program.

  After a first point the accumulator holds what the reset and the fold of that row-tile leave; after any later
  point what the fold leaves over the contents the point before left; at a last point the output block receives
  the accumulator. Each of these is the list of stored pieces the body's run finds, read back; the pieces cover
  the buffer, so the reading does not depend on what the buffer held. The invariant of the region is, before the
  first point, the scratch at anything; afterwards the scratch at what the point before left.
-/
import proofs.«139658_j40853728919873_1_alg».proof.Proof.RunsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The pieces a first point stores into the accumulator cover it. -/
theorem coverFirst (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S64x64 .f32) (x1 : Vec F S512x64 .f32) (y : S512x64.Idx) :
    ∃ pc ∈ (runFirst c i arg2 harg2 arg3 harg3 arg4 harg4 arg5 harg5 hf hl x0 x1).1, y ∈ pc.1.set :=
  View.cover_of_tiledL (runFirst c i arg2 harg2 arg3 harg3 arg4 harg4 arg5 harg5 hf hl x0 x1).1 S512x64.size (by sl_kernel_rfl) y

/-- The accumulator after a first point: its pieces read back. -/
def accFirst (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S64x64 .f32) (x1 : Vec F S512x64 .f32) : Vec F S512x64 .f32 :=
  vAcc.read (Elt F) (vAcc.writes (Elt F) vAcc.junk (runFirst c i arg2 harg2 arg3 harg3 arg4 harg4 arg5 harg5 hf hl x0 x1).1)

/-- The pieces a middle point stores into the accumulator cover it. -/
theorem coverMid (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S64x64 .f32) (x1 : Vec F S512x64 .f32) (xs : Vec F S512x64 .f32) (y : S512x64.Idx) :
    ∃ pc ∈ (runMid c i arg2 harg2 arg3 harg3 arg4 harg4 arg5 harg5 hf hl x0 x1 xs).1, y ∈ pc.1.set :=
  View.cover_of_tiledL (runMid c i arg2 harg2 arg3 harg3 arg4 harg4 arg5 harg5 hf hl x0 x1 xs).1 S512x64.size (by sl_kernel_rfl) y

/-- The accumulator after a middle point, over the contents `xs` it was found with. -/
def accMid (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S64x64 .f32) (x1 : Vec F S512x64 .f32) (xs : Vec F S512x64 .f32) : Vec F S512x64 .f32 :=
  vAcc.read (Elt F) (vAcc.writes (Elt F) vAcc.junk (runMid c i arg2 harg2 arg3 harg3 arg4 harg4 arg5 harg5 hf hl x0 x1 xs).1)

/-- The pieces a last point stores into the output block cover it, -/
theorem coverLastOut (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) (y : S512x64.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S512x64.size (by sl_kernel_rfl) y

/-- and those it stores into the accumulator cover that. -/
theorem coverLastAcc (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) (y : S512x64.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S512x64.size (by sl_kernel_rfl) y

/-- The output block after a last point. -/
def outLast (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) : Vec F S512x64 .f32 :=
  vOut.read (Elt F) (vOut.writes (Elt F) vOut.junk (runLast c i arg2 harg2 arg3 harg3 arg4 harg4 arg5 harg5 hf hl x0 x1 xs).1)

/-- The accumulator after a last point. -/
def accLast (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S64x64 .f32) (x1 : Vec F S512x64 .f32) (xs : Vec F S512x64 .f32) : Vec F S512x64 .f32 :=
  vAcc.read (Elt F) (vAcc.writes (Elt F) vAcc.junk (runLast c i arg2 harg2 arg3 harg3 arg4 harg4 arg5 harg5 hf hl x0 x1 xs).2.1)

/-- Away from a last point the output block is not stored into and not written back: a placeholder nothing reads. -/
def outIdle : Vec F S512x64 .f32 := vOut.read (Elt F) (vOut.writes (Elt F) vOut.junk [])

/-! ## What the output block and the accumulator hold after each point -/

/-- After the body at position `n`: the output block's staging buffer and the accumulator, by recursion on the
    position — the kind of point selects the run, a later point starts from what the one before left. -/
def outsAt (c : Dev nD) : (n : ℕ) → n < cfg0.N → Vec F S512x64 .f32 × Vec F S512x64 .f32
  | 0, hn => (outIdle, accFirst c (grid0.coords ⟨0, hn⟩) (mZ ⟨0, hn⟩) (hZ ⟨0, hn⟩) (mE ⟨0, hn⟩) (hE ⟨0, hn⟩) (mO ⟨0, hn⟩) (hO ⟨0, hn⟩) mAcc (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 64 = 0 then
      if h1 : (n + 1) % 64 = 63 then
        False.elim (by omega)
      else
        (outIdle, accFirst c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩))
    else
      if h1 : (n + 1) % 64 = 63 then
        (outLast c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2, accLast c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2)
      else
        (outIdle, accMid c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 64 = 0) (h1 : ¬t.val % 64 = 63) :
    outsAt m c t.val t.isLt = (outIdle, accFirst c (grid0.coords t) (mZ t) (hZ t) (mE t) (hE t) (mO t) (hO t) mAcc (Memref.isWhole_whole _) ((isFirst_iff t).mpr h0) (fun h => h1 ((isLast_iff t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 64 = 0) (h1 : ¬t.val % 64 = 63) :
    outsAt m c t.val t.isLt = (outIdle, accMid c (grid0.coords t) (mZ t) (hZ t) (mE t) (hE t) (mO t) (hO t) mAcc (Memref.isWhole_whole _) (fun h => h0 ((isFirst_iff t).mp h)) (fun h => h1 ((isLast_iff t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 64 = 0) (h1 : t.val % 64 = 63) :
    outsAt m c t.val t.isLt = (outLast c (grid0.coords t) (mZ t) (hZ t) (mE t) (hE t) (mO t) (hO t) mAcc (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2, accLast c (grid0.coords t) (mZ t) (hZ t) (mE t) (hE t) (mO t) (hO t) mAcc (Memref.isWhole_whole _) (fun h => h0 ((isFirst_iff t).mp h)) ((isLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (the scratch at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) mAcc fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) mAcc fullShare ((outsAt m c (n - 1) (by omega)).2)) ∗ (∃ r, prngReg c r)) := by
  cases n with
  | zero => exact absurd rfl hz
  | succ n => rfl

/-! ## The pipeline's proof data -/

/-- The proof data on core `c`: the arrays as the region finds them; after the body each input's buffer at its
    block and the output's at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mZ t) fullShare ((dats m 0 c).before 0 t d))
    ∗ (∃ d, owns (c : Thread nD τ) (mE t) fullShare ((dats m 0 c).before 1 t d))
    ∗ (∃ d, owns (c : Thread nD τ) (mO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's kind selects the run; the invariant
    hands the run the accumulator (at anything before the very first point, else at what the point before left)
    and takes it back at this point's contents, which the covering pieces determine; away from a last point the
    output block's buffer goes through untouched, at a last point it comes back at the copied accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 64 = 0
  · have h1 : ¬t.val % 64 = 63 := by omega
    rw [show (dats m 0 c).leavesExact 0 t = owns (c : Thread nD τ) (mZ t) fullShare ((dats m 0 c).after 0 t) from by
      unfold Dat.leavesExact; rw [live_0 t], after_0]
    rw [show (dats m 0 c).leavesExact 1 t = owns (c : Thread nD τ) (mE t) fullShare ((dats m 0 c).after 1 t) from by
      unfold Dat.leavesExact; rw [live_1 t], after_1]
    rw [Dat.leavesExact_idle (dats m 0 c) 2 t (idle_2 t (fun h => h1 ((isLast_iff t).mp h))) (noFlush_2 t (fun h => h1 ((isLast_iff t).mp h)))]
    rw [outsAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    by_cases h1 : t.val % 64 = 63
    · rw [show (dats m 0 c).leavesExact 0 t = owns (c : Thread nD τ) (mZ t) fullShare ((dats m 0 c).after 0 t) from by
        unfold Dat.leavesExact; rw [live_0 t], after_0]
      rw [show (dats m 0 c).leavesExact 1 t = owns (c : Thread nD τ) (mE t) fullShare ((dats m 0 c).after 1 t) from by
        unfold Dat.leavesExact; rw [live_1 t], after_1]
      rw [show (dats m 0 c).leavesExact 2 t = owns (c : Thread nD τ) (mO t) fullShare ((dats m 0 c).after 2 t) from by
        unfold Dat.leavesExact; rw [live_2 t ((isLast_iff t).mpr h1)], after_2]
      rw [outsAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [show (dats m 0 c).leavesExact 0 t = owns (c : Thread nD τ) (mZ t) fullShare ((dats m 0 c).after 0 t) from by
        unfold Dat.leavesExact; rw [live_0 t], after_0]
      rw [show (dats m 0 c).leavesExact 1 t = owns (c : Thread nD τ) (mE t) fullShare ((dats m 0 c).after 1 t) from by
        unfold Dat.leavesExact; rw [live_1 t], after_1]
      rw [Dat.leavesExact_idle (dats m 0 c) 2 t (idle_2 t (fun h => h1 ((isLast_iff t).mp h))) (noFlush_2 t (fun h => h1 ((isLast_iff t).mp h)))]
      rw [outsAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of the program terminates without a fault,
    every array of the pipeline ends at what the proof data says was written back, and every other buffer as the
    host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The function both programs compute before their common tail: for a code vector `e[p, ·]` and a feature `q`, the
  least squared difference `(z[n, q] - e[p, q])²` over all rows `n` of `z`, as an extended real, the minimum
  taken from +inf. Two laws about running minima: a fold of `min` over a range can be cut into consecutive
  tiles, and a fold from any start is the start met with the fold from +inf.
-/
import Idealize.ShloMosaic.PureOps.Ideal
import Idealize.ShloMosaic.PureOps.Ideal.Laws
import Idealize.ShloMosaic.Lib.ValueIdx

noncomputable section

namespace Cert.MinSq

open Idealize.ShloMosaic Idealize.ShloMosaic.ValueIdx

/-- The shapes of the two float arguments and of the block of minima. -/
abbrev SZ : Shape := ⟨2, ![4096, 64]⟩
abbrev SE : Shape := ⟨2, ![1024, 64]⟩

/-- The value the minimum starts from: the word of +inf, read at the ideal instance. -/
abbrev inf : EReal := Ideal.ofBits .f32 0x7F800000#32

/-- One squared difference. -/
def sq (z : SZ.Idx → EReal) (e : SE.Idx → EReal) (n : Fin 4096) (p : Fin 1024) (q : Fin 64) : EReal :=
  (z (ix2 n q) - e (ix2 p q)) * (z (ix2 n q) - e (ix2 p q))

/-- The running minimum over the first `k` rows, from +inf, by recursion on `k` (rows past the array count for
    nothing). This is the order in which the kernel meets the rows. -/
def runMin (z : SZ.Idx → EReal) (e : SE.Idx → EReal) (p : Fin 1024) (q : Fin 64) : ℕ → EReal
  | 0 => inf
  | k + 1 => if h : k < 4096 then min (runMin z e p q k) (sq z e ⟨k, h⟩ p q) else runMin z e p q k

/-- The least squared difference over all rows: the fold of `min` over the rows in any order. -/
def minSq (z : SZ.Idx → EReal) (e : SE.Idx → EReal) : SE.Idx → EReal :=
  fun j => (Finset.univ : Finset (Fin 4096)).fold min inf (fun n => sq z e n (j 0) (j 1))

theorem runMin_succ (z : SZ.Idx → EReal) (e : SE.Idx → EReal) (p : Fin 1024) (q : Fin 64) (k : ℕ) (h : k < 4096) :
    runMin z e p q (k + 1) = min (runMin z e p q k) (sq z e ⟨k, h⟩ p q) := by
  rw [runMin]; exact dif_pos h

/-- The running minimum over the first `k` rows is the fold of `min` over the rows below `k`. -/
theorem runMin_eq_fold (z : SZ.Idx → EReal) (e : SE.Idx → EReal) (p : Fin 1024) (q : Fin 64) :
    ∀ k, k ≤ 4096 → runMin z e p q k
      = ((Finset.univ : Finset (Fin 4096)).filter (fun n => n.val < k)).fold min inf (fun n => sq z e n p q)
  | 0, _ => by
    rw [show ((Finset.univ : Finset (Fin 4096)).filter (fun n => n.val < 0)) = ∅ from
      Finset.filter_eq_empty_iff.mpr (fun n _ => Nat.not_lt_zero _), Finset.fold_empty]; rfl
  | k + 1, hk => by
    have hk' : k < 4096 := hk
    rw [runMin_succ z e p q k hk', runMin_eq_fold z e p q k (Nat.le_of_lt hk')]
    have hs : ((Finset.univ : Finset (Fin 4096)).filter (fun n => n.val < k + 1))
        = insert (⟨k, hk'⟩ : Fin 4096) ((Finset.univ : Finset (Fin 4096)).filter (fun n => n.val < k)) := by
      ext n
      simp only [Finset.mem_filter, Finset.mem_univ, true_and, Finset.mem_insert, Fin.ext_iff]
      omega
    rw [hs, Finset.fold_insert (by simp), min_comm]

theorem runMin_zero (z : SZ.Idx → EReal) (e : SE.Idx → EReal) (p : Fin 1024) (q : Fin 64) :
    runMin z e p q 0 = inf := rfl

/-- All rows met in order give the order-free minimum (the row count kept symbolic: the recursion is never run). -/
theorem runMin_all_of (z : SZ.Idx → EReal) (e : SE.Idx → EReal) (j : SE.Idx) (k : ℕ) (hk : k = 4096) :
    runMin z e (j 0) (j 1) k = minSq z e j := by
  rw [runMin_eq_fold z e (j 0) (j 1) k (le_of_eq hk)]
  unfold minSq
  congr 1
  exact Finset.filter_true_of_mem (fun n _ => by rw [hk]; exact n.isLt)

/-- All 4096 rows met in order give the order-free minimum. -/
theorem runMin_all (z : SZ.Idx → EReal) (e : SE.Idx → EReal) (j : SE.Idx) :
    runMin z e (j 0) (j 1) 4096 = minSq z e j :=
  runMin_all_of z e j 4096 rfl

attribute [irreducible] runMin

end Cert.MinSq

end
-- ==== Proof.RefValue.lean ====
/-
  The reference program's results as functions of its arguments: the block of least squared differences it
  computes with one min-reduction over all rows, and the common tail (two means, and the prefix-mask product).
-/
import proofs.«139658_j40853728919873_1_alg».proof.Proof.Gen.ReferenceIdeal.Read
import proofs.«139658_j40853728919873_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The common tail

Both programs end with the same operations on the block of minima and on the arguments: the mean over the 1024
code vectors of each feature's minimum, then the mean over the 64 features; and the rows of the first argument
with the entries at and past each row's given position set to zero. They are written once, as functions, and
never opened: two results are equal because the tail is applied to equal blocks. -/

/-- The mean over the 1024 code vectors (a sum from zero, divided by 1024), then the mean over the 64 features
    (a sum from zero, divided by 64), of a block of minima. -/
def lossTail (mo : (⟨S1024x64, .f32⟩ : BufTy).Contents (Elt Ideal)) : (⟨S_, .f32⟩ : BufTy).Contents (Elt Ideal) :=
  Host.divf (F := Ideal) (φ := .f32)
    (Host.reduceAdd (F := Ideal) (φ := .f32)
      (Host.divf (F := Ideal) (φ := .f32)
        (Host.reduceAdd (F := Ideal) (φ := .f32) mo (constant (F := Ideal) S_ .f32 0x00000000#32) reducesTo_S1024x64_S64_d0 h_S_)
        (broadcastInDim S64 ![] bcast_S_S64 (constant (F := Ideal) S_ .f32 0x44800000#32)))
      (constant (F := Ideal) S_ .f32 0x00000000#32) reducesTo_S64_S_d0 h_S_)
    (constant (F := Ideal) S_ .f32 0x42800000#32)

/-- Row n of the first argument times the indicator of the columns below the n-th given position: the column
    numbers 0..63 compared (signed) with the position, the truth value read as 0 or 1. -/
def maskTail (z : (⟨S4096x64, .f32⟩ : BufTy).Contents (Elt Ideal)) (ri : (⟨S4096, .i32⟩ : BufTy).Contents (Elt Ideal)) :
    (⟨S4096x64, .f32⟩ : BufTy).Contents (Elt Ideal) :=
  mulf (F := Ideal) (φ := .f32) z
    (uitofp (F := Ideal) .f32
      (cmpi .slt
        (broadcastInDim S4096x64 ![0, 1] bcast_S1x64_S4096x64_0_1
          (broadcastInDim S1x64 ![1] bcast_S64_S1x64_1 (iotaInDim S64 32 0)))
        (broadcastInDim S4096x64 ![0, 1] bcast_S4096x1_S4096x64_0_1
          (broadcastInDim S4096x1 ![0] bcast_S4096_S4096x1_0 ri))))

/-! ## The min-reduction is the least squared difference -/

/-- Removing axis 0 of the [4096, 1024, 64] array of squared differences leaves the [1024, 64] block. -/
theorem rows_dropped : S4096x1024x64.Reduces [0] S1024x64 := by decide

/-- The index (p, q) of the block with row k put back on the removed axis is (k, p, q). -/
theorem lift_rows (j : S1024x64.Idx) (k : Fin (S4096x1024x64.size 0)) :
    rows_dropped.lift j k = ix3 (⟨k.val, k.isLt⟩ : Fin 4096) (j 0 : Fin 1024) (j 1 : Fin 64) := by
  funext c
  apply Fin.ext
  match c with
  | ⟨0, _⟩ => rfl
  | ⟨1, _⟩ => rfl
  | ⟨2, _⟩ => rfl

/-- The entry (n, p, q) of the array the reduction runs over is the squared difference of z[n, q] and e[p, q]:
    both broadcasts read their operand at the coordinates they keep. -/
theorem sq_at (z : (⟨S4096x64, .f32⟩ : BufTy).Contents (Elt Ideal)) (e : (⟨S1024x64, .f32⟩ : BufTy).Contents (Elt Ideal))
    (n : Fin 4096) (p : Fin 1024) (q : Fin 64) :
    Read.val_main_v5 (F := Ideal) z e (ix3 n p q) = Cert.MinSq.sq z e n p q := by
  have hz : Read.idx_main_v0 (Read.idx_main_v2 (ix3 n p q)) = ix2 n q :=
    funext fun a => Fin.ext (by match a with | ⟨0, _⟩ => rfl | ⟨1, _⟩ => rfl)
  have he : Read.idx_main_v1 (Read.idx_main_v3 (ix3 n p q)) = ix2 p q :=
    funext fun a => Fin.ext (by match a with | ⟨0, _⟩ => rfl | ⟨1, _⟩ => rfl)
  rw [Read.val_main_v5_apply, Read.val_main_v4_apply, Read.val_main_v2_apply, Read.val_main_v3_apply,
    Read.val_main_v0_apply, Read.val_main_v1_apply, hz, he]
  rfl

/-- The reference's min-reduction over axis 0, from +inf, is at (p, q) the least of the 4096 squared differences
    (z[n, q] - e[p, q])²: a reduction with a commutative and associative body over one axis is the fold over
    that axis's coordinates, and the coordinate n put back at (p, q) is the entry (n, p, q). -/
theorem minout_eq (z : (⟨S4096x64, .f32⟩ : BufTy).Contents (Elt Ideal)) (e : (⟨S1024x64, .f32⟩ : BufTy).Contents (Elt Ideal)) :
    Read.val_main_v6 (F := Ideal) z e = Cert.MinSq.minSq z e := by
  funext j
  refine (Host.reduce_eq_fold_single (FloatOps.minimumf (F := Ideal) (φ := .f32)) (Read.val_main_v5 (F := Ideal) z e)
    (Read.val_main_cst (F := Ideal)) reducesTo_S4096x1024x64_S1024x64_d0 rows_dropped h_S_ j).trans ?_
  have hf : (Read.val_main_v5 (F := Ideal) z e ∘ rows_dropped.lift j)
      = fun n : Fin 4096 => Cert.MinSq.sq z e n (j 0) (j 1) :=
    funext fun n => (congrArg (Read.val_main_v5 (F := Ideal) z e) (lift_rows j n)).trans (sq_at z e _ (j 0) (j 1))
  exact congrArg (fun f => Finset.fold min (Ideal.ofBits .f32 0x7F800000#32) f (Finset.univ : Finset (Fin 4096))) hf

/-! ## The reference's results -/

/-- The first result is the tail's two means of the block of least squared differences. -/
theorem loss_eq (z : (⟨S4096x64, .f32⟩ : BufTy).Contents (Elt Ideal)) (e : (⟨S1024x64, .f32⟩ : BufTy).Contents (Elt Ideal)) :
    Read.val_main_v11 (F := Ideal) z e = lossTail (Cert.MinSq.minSq z e) := by
  rw [← minout_eq]; rfl

/-- The second result is the tail's masked product. -/
theorem mask_eq (z : (⟨S4096x64, .f32⟩ : BufTy).Contents (Elt Ideal)) (ri : (⟨S4096, .i32⟩ : BufTy).Contents (Elt Ideal)) :
    Read.val_main_v19 (F := Ideal) z ri = maskTail z ri := rfl

/-- Every weakly fair execution of the reference ends with its first result at the tail's means of the least
    squared differences of its first two arguments, its second at the masked product of the first and third, its
    third the first argument, and the arguments unchanged. -/
theorem run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v11)
        = lossTail (Cert.MinSq.minSq (m' ((c.tc : Thread nD τ).loc main_arg0)) (m' ((c.tc : Thread nD τ).loc main_arg1)))
      ∧ r.2.mem ((c.tc : Thread nD τ).loc main_v19)
        = maskTail (m' ((c.tc : Thread nD τ).loc main_arg0)) (m' ((c.tc : Thread nD τ).loc main_arg2))
      ∧ r.2.mem ((c.tc : Thread nD τ).loc main_arg0) = m' ((c.tc : Thread nD τ).loc main_arg0)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (Cert.ReferenceIdeal.defs (F := Ideal)) _ _).mono (fun _ h c =>
      ⟨(h c).1.trans ((Read.val_main_v11_eq _ _).trans (loss_eq _ _)),
        (h c).2.1.trans ((Read.val_main_v19_eq _ _).trans (mask_eq _ _)),
        (h c).2.2⟩)
    (Cert.ReferenceIdeal.Value.run (F := Ideal) m' ρ')

/-- The reference runs and leaves its three arguments unchanged: its run with the results dropped. -/
theorem frame (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (Cert.ReferenceIdeal.defs (F := Ideal)) _ _).mono (fun _ h c => (h c).2.2.2)
    (Cert.ReferenceIdeal.Value.run (F := Ideal) m' ρ')

end Cert.ReferenceIdeal.RefValue

end
-- ==== Proof.Fold.lean ====
/-
  The body's arithmetic at one entry, at the ideal instance. One trip of the body's loop meets the accumulator
  with the squared difference of one row of the first operand against the second operand's block; sixty-four
  trips fold a row-tile into the accumulator. Read at an entry (p, q) this is the running minimum of the
  specification advanced by one row, respectively by the row-tile.
-/
import proofs.«139658_j40853728919873_1_alg».proof.Proof.Gen.KernelIdeal.Skeleton
import proofs.«139658_j40853728919873_1_alg».proof.Proof.Spec
import Idealize.ShloMosaic.Lib.ValueIdx
import Idealize.ShloMosaic.Lib.ValueLayout
import Idealize.ShloMosaic.Lib.Pipeline.Value

noncomputable section

namespace Cert.MinSq

open Cert.KernelIdeal Cert.KernelIdeal.Gen
open Idealize.ShloMosaic Idealize.ShloMosaic.ValueIdx

/-- The reset value at an entry: +inf. -/
theorem pay1_apply (j : S512x64.Idx) : k0_pay1 (F := Ideal) j = inf := by
  unfold k0_pay1
  (try dsimp only)
  rw [shapeCast_self]
  rfl

/-- The stored accumulator is the loop's result as it is. -/
theorem pay3_eq (v : Vec Ideal S512x64 .f32) : k0_pay3 (F := Ideal) v = v := by
  unfold k0_pay3
  (try dsimp only)
  rw [shapeCast_self]

/-- One trip at an entry: the accumulator met with the squared difference of the row's entry and the block's. -/
theorem pay2_apply (x1 acc : Vec Ideal S512x64 .f32) (row : Vec Ideal S1x64 .f32) (p : Fin 512) (q : Fin 64) :
    k0_pay2 (F := Ideal) x1 acc row (ix2 p q)
      = min (acc (ix2 p q)) ((row (ix2 (0 : Fin 1) q) - x1 (ix2 p q)) * (row (ix2 (0 : Fin 1) q) - x1 (ix2 p q))) := by
  unfold k0_pay2
  (try dsimp only)
  rw [minimumf_apply, mulf_apply, subf_apply, shapeCast_shapeCast, broadcastTo_1b_ab_apply]

/-- The fold of the rows `rows 0, …, rows (n - 1)` into `acc`, one trip per row. -/
def foldRows (rows : Fin 64 → Vec Ideal S1x64 .f32) (x1 : Vec Ideal S512x64 .f32) (acc : Vec Ideal S512x64 .f32) :
    ℕ → Vec Ideal S512x64 .f32
  | 0 => acc
  | n + 1 => if h : n < 64 then k0_pay2 (F := Ideal) x1 (foldRows rows x1 acc n) (rows ⟨n, h⟩) else foldRows rows x1 acc n

theorem foldRows_succ (rows : Fin 64 → Vec Ideal S1x64 .f32) (x1 acc : Vec Ideal S512x64 .f32) (k : Fin 64) :
    foldRows rows x1 acc (k.val + 1) = k0_pay2 (F := Ideal) x1 (foldRows rows x1 acc k.val) (rows k) := by
  rw [foldRows]; exact dif_pos k.isLt

/-- If the accumulator's entry is the running minimum over the rows below `lo`, the rows folded are rows
    `lo, lo + 1, …` of the first operand and the block's entry is the second operand's, then after `n` trips the
    entry is the running minimum over the rows below `lo + n`. -/
theorem foldRows_apply (z : SZ.Idx → EReal) (e : SE.Idx → EReal) (P : Fin 1024) (q : Fin 64) (p : Fin 512)
    (lo : ℕ) (hlo : lo + 64 ≤ 4096)
    (rows : Fin 64 → Vec Ideal S1x64 .f32) (x1 acc : Vec Ideal S512x64 .f32)
    (hrows : ∀ k : Fin 64, rows k (ix2 (0 : Fin 1) q) = z (ix2 (⟨lo + k.val, by have := k.isLt; omega⟩ : Fin 4096) q))
    (hx1 : x1 (ix2 p q) = e (ix2 P q))
    (hacc : acc (ix2 p q) = runMin z e P q lo) :
    ∀ n, n ≤ 64 → foldRows rows x1 acc n (ix2 p q) = runMin z e P q (lo + n)
  | 0, _ => hacc
  | n + 1, hn => by
    have h : n < 64 := hn
    rw [foldRows_succ rows x1 acc ⟨n, h⟩, pay2_apply, foldRows_apply z e P q p lo hlo rows x1 acc hrows hx1 hacc n (Nat.le_of_lt h),
      hrows ⟨n, h⟩, hx1, show lo + (n + 1) = (lo + n) + 1 from rfl, runMin_succ z e P q (lo + n) (by omega)]
    rfl

end Cert.MinSq

end
-- ==== Proof.ValueIdeal.lean ====
/-
  The value of the running-minimum kernel at the ideal instance.

  After the body at grid point t = 64·I + k the accumulator's entry (p, q) is the running minimum of the squared
  differences (z[n, q] - e[512·I + p, q])² over the rows n < 64·(k + 1): a first point starts from +inf and folds
  rows 0…63, a later point folds its row-tile into what the point before left. At k = 63 all 4096 rows have been
  met, the output block receives the accumulator and is written back, so block I of the result array is the block
  of least squared differences; the two blocks tile the array. The host operations after the region are applied
  to that array.
-/
import proofs.«139658_j40853728919873_1_alg».proof.Proof.FrameIdeal
import proofs.«139658_j40853728919873_1_alg».proof.Proof.Fold
import proofs.«139658_j40853728919873_1_alg».proof.Proof.RefValue
import Idealize.ShloMosaic.Lib.StableHlo.Run

set_option maxRecDepth 16384

noncomputable section

namespace Cert.KernelIdeal.Val

open Cert.KernelIdeal Cert.KernelIdeal.Gen Cert.KernelIdeal.Body Cert.MinSq
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The windows' blocks, entry by entry -/

/-- Where each window's block sits at a point, decided over the grid: the row-tile of the first operand moves with
    k = t % 64, the blocks of the second operand and of the result with I = t / 64. -/
theorem idx_facts : ∀ t : Fin cfg0.N, win0_0.index t (0 : Fin 2) = t.val % 64 ∧ win0_0.index t (1 : Fin 2) = 0
    ∧ win0_1.index t (0 : Fin 2) = t.val / 64 ∧ win0_1.index t (1 : Fin 2) = 0
    ∧ win0_2.index t (0 : Fin 2) = t.val / 64 ∧ win0_2.index t (1 : Fin 2) = 0 :=
  (by decide +kernel : ∀ t : Fin grid0.N, _)

/-- The first operand's block at point t: rows 64·(t % 64) … of z. -/
theorem iblk0_apply (c : Dev nD) (t : Fin cfg0.N) (r : Fin 64) (q : Fin 64) :
    (iblk m c 0 t : S64x64.Idx → EReal) (ix2 r q)
      = (V m c main_arg0 : S4096x64.Idx → EReal) (ix2 (⟨(t.val % 64) * 64 + r.val, by have := r.isLt; omega⟩ : Fin 4096) q) := by
  obtain ⟨e0, e1, -⟩ := idx_facts t
  show (V m c main_arg0 : S4096x64.Idx → EReal) (((cfg0.win 0).blk t).view.emb (ix2 r q)) = _
  refine congrArg _ ?_
  funext a; apply Fin.ext
  match a with
  | ⟨0, _⟩ => show win0_0.index t (0 : Fin 2) * 64 + 1 * r.val = (t.val % 64) * 64 + r.val; omega
  | ⟨1, _⟩ => show win0_0.index t (1 : Fin 2) * 64 + 1 * q.val = q.val; omega

/-- The second operand's block at point t: rows 512·(t / 64) … of e. -/
theorem iblk1_apply (c : Dev nD) (t : Fin cfg0.N) (p : Fin 512) (q : Fin 64) :
    (iblk m c 1 t : S512x64.Idx → EReal) (ix2 p q)
      = (V m c main_arg1 : S1024x64.Idx → EReal) (ix2 (⟨(t.val / 64) * 512 + p.val, by
          have := p.isLt; have := lt_of_lt_of_eq t.isLt (show cfg0.N = 128 from N_0); omega⟩ : Fin 1024) q) := by
  obtain ⟨-, -, e2, e3, -⟩ := idx_facts t
  show (V m c main_arg1 : S1024x64.Idx → EReal) (((cfg0.win 1).blk t).view.emb (ix2 p q)) = _
  refine congrArg _ ?_
  funext a; apply Fin.ext
  match a with
  | ⟨0, _⟩ => show win0_1.index t (0 : Fin 2) * 512 + 1 * p.val = (t.val / 64) * 512 + p.val; omega
  | ⟨1, _⟩ => show win0_1.index t (1 : Fin 2) * 64 + 1 * q.val = q.val; omega

/-! ## The found pieces, opened -/

theorem ktrips : k0_t1_loop.trips = 64 := by decide
theorem trips64 : Scf.trips (0#32) (Scalar.addi 0#32 64#32) 1#32 = 64 := by decide

/-- Row k of a row-tile held in a whole buffer, as a trip of the loop loads it. -/
def rowOf (arg2 : Memref sig .tc .vmem S64x64 .f32) (X : BufTy.Contents (Elt Ideal) arg2.view.ty) (k : Fin 64) : Vec Ideal S1x64 .f32 :=
  View.readAt (Elt Ideal) arg2.view (Rect.unit (s := S64x64) (k0_off1 (k.cast ktrips.symm)) S1x64.size (k0_off1_inb _)).toLoadRect X

/-- The loaded row at an entry is the row-tile's entry (k, q). -/
theorem rowOf_apply (arg2 : Memref sig .tc .vmem S64x64 .f32) (harg2 : arg2.IsWhole) (x0 : Vec Ideal S64x64 .f32) (k : Fin 64) (q : Fin 64) :
    rowOf arg2 (harg2.unread x0) k (ix2 (0 : Fin 1) q) = x0 (ix2 k q) := by
  unfold rowOf
  rw [View.readAt_eq_ld, harg2.read_unread]
  have e := k0_off1_eq (k.cast ktrips.symm)
  show x0 ((Rect.unit (s := S64x64) (k0_off1 (k.cast ktrips.symm)) S1x64.size (k0_off1_inb _)).emb (ix2 (0 : Fin 1) q)) = x0 (ix2 k q)
  refine congrArg x0 ?_
  funext a; apply Fin.ext
  match a with
  | ⟨0, _⟩ => show k0_off1 (k.cast ktrips.symm) 0 + 1 * 0 = k.val; rw [e]; simp
  | ⟨1, _⟩ => show k0_off1 (k.cast ktrips.symm) 1 + 1 * q.val = q.val; rw [e]; simp

/-- One trip is one step of the fold. -/
theorem tripR_eq (𝒱 : Variants) (bd : Option 𝒱.V) (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (v3 : Vec Ideal S512x64 .f32) (X : BufTy.Contents (Elt Ideal) arg2.view.ty)
    (k : Fin k0_t1_loop.trips) (acc : Vec Ideal S512x64 .f32) :
    tripR_k0_t1 (F := Ideal) 𝒱 c bd i arg2 harg2 arg3 harg3 arg4 harg4 arg5 harg5 v3 X k acc
      = k0_pay2 (F := Ideal) v3 acc (rowOf arg2 X ⟨k.val, lt_of_lt_of_eq k.isLt ktrips⟩) := by
  unfold tripR_k0_t1 trip_k0_t1
  rfl

/-- The loop's carried value before trip n is the fold of the first n rows. -/
theorem st_eq_fold (𝒱 : Variants) (bd : Option 𝒱.V) (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (v3 : Vec Ideal S512x64 .f32) (X : BufTy.Contents (Elt Ideal) arg2.view.ty) (init : Vec Ideal S512x64 .f32) :
    ∀ n, n ≤ 64 → st_k0_t1 (F := Ideal) 𝒱 c bd i arg2 harg2 arg3 harg3 arg4 harg4 arg5 harg5 v3 X init n = foldRows (rowOf arg2 X) v3 init n
  | 0, _ => rfl
  | n + 1, hn => by
    have h : n < 64 := hn
    have hk : n < k0_t1_loop.trips := lt_of_lt_of_eq h ktrips.symm
    have e1 := st_k0_t1_succ (F := Ideal) 𝒱 c bd i arg2 harg2 arg3 harg3 arg4 harg4 arg5 harg5 v3 X init ⟨n, hk⟩
    have e2 := foldRows_succ (rowOf arg2 X) v3 init ⟨n, h⟩
    have ih := st_eq_fold 𝒱 bd c i arg2 harg2 arg3 harg3 arg4 harg4 arg5 harg5 v3 X init n (Nat.le_of_lt h)
    refine e1.trans (Eq.trans ?_ e2.symm)
    show tripR_k0_t1 (F := Ideal) 𝒱 c bd i arg2 harg2 arg3 harg3 arg4 harg4 arg5 harg5 v3 X ⟨n, hk⟩ (st_k0_t1 (F := Ideal) 𝒱 c bd i arg2 harg2 arg3 harg3 arg4 harg4 arg5 harg5 v3 X init n)
      = k0_pay2 (F := Ideal) v3 (foldRows (rowOf arg2 X) v3 init n) (rowOf arg2 X ⟨n, h⟩)
    rw [tripR_eq, ih]

theorem accMid_eq (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i) (x0 : Vec Ideal S64x64 .f32) (x1 xs : Vec Ideal S512x64 .f32) :
    accMid (F := Ideal) c i arg2 harg2 arg3 harg3 arg4 harg4 arg5 harg5 hf hl x0 x1 xs = foldRows (rowOf arg2 (harg2.unread x0)) x1 xs 64 := by
  unfold accMid
  rw [View.read_writes_eq_canon _ _ _ (coverMid c i arg2 harg2 arg3 harg3 arg4 harg4 arg5 harg5 hf hl x0 x1 xs)]
  unfold runMid
  dsimp only
  rw [View.canon_unit_zero hz]
  simp only [View.readAt_eq_ld, harg3.read_unread, harg5.read_unread, View.ld_unit_zero (S := S512x64) hz]
  rw [pay3_eq, trips64, st_eq_fold _ _ c i arg2 harg2 arg3 harg3 arg4 harg4 arg5 harg5 _ _ _ 64 le_rfl]

theorem accFirst_eq (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i) (x0 : Vec Ideal S64x64 .f32) (x1 : Vec Ideal S512x64 .f32) :
    accFirst (F := Ideal) c i arg2 harg2 arg3 harg3 arg4 harg4 arg5 harg5 hf hl x0 x1 = foldRows (rowOf arg2 (harg2.unread x0)) x1 (k0_pay1 (F := Ideal)) 64 := by
  unfold accFirst
  rw [View.read_writes_eq_canon _ _ _ (coverFirst c i arg2 harg2 arg3 harg3 arg4 harg4 arg5 harg5 hf hl x0 x1)]
  unfold runFirst
  dsimp only
  sl_unfold_words
  rw [View.canon_cons_unit_zero (S := S512x64) hz, View.readCov_unit_zero (S := S512x64) _ hz]
  simp only [View.readAt_eq_ld, harg3.read_unread, View.ld_unit_zero (S := S512x64) hz]
  rw [pay3_eq, trips64, st_eq_fold _ _ c i arg2 harg2 arg3 harg3 arg4 harg4 arg5 harg5 _ _ _ 64 le_rfl]

theorem accLast_eq (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i) (x0 : Vec Ideal S64x64 .f32) (x1 xs : Vec Ideal S512x64 .f32) :
    accLast (F := Ideal) c i arg2 harg2 arg3 harg3 arg4 harg4 arg5 harg5 hf hl x0 x1 xs = foldRows (rowOf arg2 (harg2.unread x0)) x1 xs 64 := by
  unfold accLast
  rw [View.read_writes_eq_canon _ _ _ (coverLastAcc c i arg2 harg2 arg3 harg3 arg4 harg4 arg5 harg5 hf hl x0 x1 xs)]
  unfold runLast
  dsimp only
  sl_unfold_words
  rw [View.canon_unit_zero hz]
  simp only [View.readAt_eq_ld, harg3.read_unread, harg5.read_unread, View.ld_unit_zero (S := S512x64) hz]
  rw [pay3_eq, trips64, st_eq_fold _ _ c i arg2 harg2 arg3 harg3 arg4 harg4 arg5 harg5 _ _ _ 64 le_rfl]

theorem outLast_eq (c : Dev nD) (i : grid0.Coords) (arg2 : Memref sig .tc .vmem S64x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i) (x0 : Vec Ideal S64x64 .f32) (x1 xs : Vec Ideal S512x64 .f32) :
    outLast (F := Ideal) c i arg2 harg2 arg3 harg3 arg4 harg4 arg5 harg5 hf hl x0 x1 xs = foldRows (rowOf arg2 (harg2.unread x0)) x1 xs 64 := by
  unfold outLast
  rw [View.read_writes_eq_canon _ _ _ (coverLastOut c i arg2 harg2 arg3 harg3 arg4 harg4 arg5 harg5 hf hl x0 x1 xs)]
  unfold runLast
  dsimp only
  sl_unfold_words
  rw [View.canon_unit_zero hz, View.readCov_unit_zero (S := S512x64) _ hz]
  simp only [View.readAt_eq_ld, harg3.read_unread, harg5.read_unread, View.ld_unit_zero (S := S512x64) hz]
  rw [pay3_eq, trips64, st_eq_fold _ _ c i arg2 harg2 arg3 harg3 arg4 harg4 arg5 harg5 _ _ _ 64 le_rfl]

/-! ## The accumulator after each point -/

/-- The fold of point t's row-tile, at an entry: the running minimum advanced by the 64 rows of the tile. -/
theorem fold_point (c : Dev nD) (t : Fin cfg0.N) (p : Fin 512) (q : Fin 64) (acc : Vec Ideal S512x64 .f32)
    (hP : (t.val / 64) * 512 + p.val < 1024)
    (hacc : acc (ix2 p q) = runMin (V m c main_arg0) (V m c main_arg1) ⟨(t.val / 64) * 512 + p.val, hP⟩ q ((t.val % 64) * 64)) :
    foldRows (rowOf (mZ t) ((hZ t).unread (iblk m c 0 t))) (iblk m c 1 t) acc 64 (ix2 p q)
      = runMin (V m c main_arg0) (V m c main_arg1) ⟨(t.val / 64) * 512 + p.val, hP⟩ q ((t.val % 64 + 1) * 64) := by
  have h := foldRows_apply (V m c main_arg0) (V m c main_arg1) ⟨(t.val / 64) * 512 + p.val, hP⟩ q p ((t.val % 64) * 64)
    (by omega) (rowOf (mZ t) ((hZ t).unread (iblk m c 0 t))) (iblk m c 1 t) acc
    (fun k => (rowOf_apply (mZ t) (hZ t) (iblk m c 0 t) k q).trans (iblk0_apply m c t k q)) (iblk1_apply m c t p q) hacc 64 le_rfl
  rw [h]; congr 1; ring

/-- THE INVARIANT: after the body at position n the accumulator's entry (p, q) is the running minimum over the rows
    below 64·(n % 64 + 1), against row 512·(n / 64) + p of the second operand. -/
theorem acc_after (c : Dev nD) : ∀ (n : ℕ) (hn : n < cfg0.N) (p : Fin 512) (q : Fin 64) (hP : (n / 64) * 512 + p.val < 1024),
    (outsAt m c n hn).2 (ix2 p q)
      = runMin (V m c main_arg0) (V m c main_arg1) ⟨(n / 64) * 512 + p.val, hP⟩ q ((n % 64 + 1) * 64) := by
  intro n
  induction n with
  | zero =>
    intro hn p q hP
    have e := outsAt_first m c ⟨0, hn⟩ (Nat.zero_mod _) (by show ¬(0 % 64 = 63); decide)
    rw [show outsAt m c 0 hn = outsAt m c (⟨0, hn⟩ : Fin cfg0.N).val (⟨0, hn⟩ : Fin cfg0.N).isLt from rfl, e]
    dsimp only
    rw [accFirst_eq c (grid0.coords ⟨0, hn⟩) (mZ ⟨0, hn⟩) (hZ ⟨0, hn⟩) (mE ⟨0, hn⟩) (hE ⟨0, hn⟩) (mO ⟨0, hn⟩) (hO ⟨0, hn⟩) mAcc (Memref.isWhole_whole _) _ _ (iblk m c 0 ⟨0, hn⟩) (iblk m c 1 ⟨0, hn⟩)]
    exact fold_point m c ⟨0, hn⟩ p q _ hP ((pay1_apply _).trans (runMin_zero _ _ _ _).symm)
  | succ n ih =>
    intro hn p q hP
    have hN : n + 1 < 128 := lt_of_lt_of_eq hn (show cfg0.N = 128 from N_0)
    by_cases h0 : (n + 1) % 64 = 0
    · have h1 : ¬(n + 1) % 64 = 63 := by omega
      have e := outsAt_first m c ⟨n + 1, hn⟩ h0 h1
      rw [show outsAt m c (n + 1) hn = outsAt m c (⟨n + 1, hn⟩ : Fin cfg0.N).val (⟨n + 1, hn⟩ : Fin cfg0.N).isLt from rfl, e]
      dsimp only
      rw [accFirst_eq c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) _ _ (iblk m c 0 ⟨n + 1, hn⟩) (iblk m c 1 ⟨n + 1, hn⟩)]
      refine fold_point m c ⟨n + 1, hn⟩ p q _ hP ?_
      rw [pay1_apply]; show inf = runMin _ _ _ q (((n + 1) % 64) * 64); rw [h0, Nat.zero_mul]; exact (runMin_zero _ _ _ _).symm
    · have hprev : (outsAt m c n (Nat.lt_of_succ_lt hn)).2 (ix2 p q)
          = runMin (V m c main_arg0) (V m c main_arg1) ⟨((n + 1) / 64) * 512 + p.val, hP⟩ q (((n + 1) % 64) * 64) := by
        have hq : n / 64 = (n + 1) / 64 := by omega
        have hr : (n % 64 + 1) * 64 = ((n + 1) % 64) * 64 := by omega
        have := ih (Nat.lt_of_succ_lt hn) p q (by omega)
        rw [this]; congr 1
        · exact Fin.ext (by show n / 64 * 512 + p.val = (n + 1) / 64 * 512 + p.val; omega)
      by_cases h1 : (n + 1) % 64 = 63
      · have e := outsAt_last m c ⟨n + 1, hn⟩ h0 h1
        rw [show outsAt m c (n + 1) hn = outsAt m c (⟨n + 1, hn⟩ : Fin cfg0.N).val (⟨n + 1, hn⟩ : Fin cfg0.N).isLt from rfl, e]
        dsimp only
        rw [accLast_eq c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) _ _ (iblk m c 0 ⟨n + 1, hn⟩) (iblk m c 1 ⟨n + 1, hn⟩) _]
        exact fold_point m c ⟨n + 1, hn⟩ p q _ hP hprev
      · have e := outsAt_mid m c ⟨n + 1, hn⟩ h0 h1
        rw [show outsAt m c (n + 1) hn = outsAt m c (⟨n + 1, hn⟩ : Fin cfg0.N).val (⟨n + 1, hn⟩ : Fin cfg0.N).isLt from rfl, e]
        dsimp only
        rw [accMid_eq c (grid0.coords ⟨n + 1, hn⟩) (mZ ⟨n + 1, hn⟩) (hZ ⟨n + 1, hn⟩) (mE ⟨n + 1, hn⟩) (hE ⟨n + 1, hn⟩) (mO ⟨n + 1, hn⟩) (hO ⟨n + 1, hn⟩) mAcc (Memref.isWhole_whole _) _ _ (iblk m c 0 ⟨n + 1, hn⟩) (iblk m c 1 ⟨n + 1, hn⟩) _]
        exact fold_point m c ⟨n + 1, hn⟩ p q _ hP hprev

/-! ## The block written back, the cover, the array after the run -/

/-- The block of least squared differences of the two argument arrays as core c's region finds them. -/
abbrev G (c : Dev nD) : S1024x64.Idx → EReal := minSq (V m c main_arg0) (V m c main_arg1)

/-- WHAT A LAST POINT WRITES BACK is its block of the least squared differences: by then all 4096 rows have been met. -/
theorem flushed_eq (c : Dev nD) (t : Fin cfg0.N) (hfl : (cfg0.win 2).flush t = true) :
    (dats m 0 c).flushed 2 t = ((cfg0.win 2).blk t).view.read (Elt Ideal) (G m c) := by
  have h63 : t.val % 64 = 63 := (flush0_2 t).mp hfl
  have h0 : ¬t.val % 64 = 0 := by omega
  have hN : t.val < 128 := lt_of_lt_of_eq t.isLt (show cfg0.N = 128 from N_0)
  show (cfg0.win 2).cut (grid0.coords t) ((dats m 0 c).after 2 t) = _
  rw [after_2, outsAt_last m c t h0 h63]
  dsimp only
  rw [outLast_eq c (grid0.coords t) (mZ t) (hZ t) (mE t) (hE t) (mO t) (hO t) mAcc (Memref.isWhole_whole _) _ _ (iblk m c 0 t) (iblk m c 1 t) _]
  funext j
  obtain ⟨p, q, rfl⟩ : ∃ (p : Fin 512) (q : Fin 64), j = ix2 p q := ⟨j 0, j 1, eq_ix2 j⟩
  have hP : (t.val / 64) * 512 + p.val < 1024 := by have := p.isLt; omega
  have hprev := acc_after m c (t.val - 1) (Nat.lt_of_le_of_lt (Nat.sub_le _ _) t.isLt) p q (by have := p.isLt; omega)
  have hstep := fold_point m c t p q (outsAt m c (t.val - 1) (Nat.lt_of_le_of_lt (Nat.sub_le _ _) t.isLt)).2 hP (by
    rw [hprev]; congr 1
    · exact Fin.ext (by show (t.val - 1) / 64 * 512 + p.val = t.val / 64 * 512 + p.val; omega)
    · omega)
  obtain ⟨-, -, -, -, e4, e5⟩ := idx_facts t
  have hemb : ((cfg0.win 2).blk t).view.emb (ix2 p q) = ix2 (⟨(t.val / 64) * 512 + p.val, hP⟩ : Fin 1024) q := by
    funext a; apply Fin.ext
    match a with
    | ⟨0, _⟩ => show win0_2.index t (0 : Fin 2) * 512 + 1 * p.val = (t.val / 64) * 512 + p.val; omega
    | ⟨1, _⟩ => show win0_2.index t (1 : Fin 2) * 64 + 1 * q.val = q.val; omega
  show foldRows _ _ _ 64 (ix2 p q) = G m c (((cfg0.win 2).blk t).view.emb (ix2 p q))
  rw [hstep, hemb, show (t.val % 64 + 1) * 64 = 4096 by omega]
  exact runMin_all (V m c main_arg0) (V m c main_arg1) (ix2 (⟨(t.val / 64) * 512 + p.val, hP⟩ : Fin 1024) q)

/-- An index of the result array is in point t's block iff each coordinate is in the block's range on its axis. -/
theorem mem_blk (t : Fin cfg0.N) (i : S1024x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- THE COVER: row r of the result is in the block written back at the last point of column-tile r / 512. -/
theorem cover (i : S1024x64.Idx) : ∃ t : Fin cfg0.N, (cfg0.win 2).flush t = true ∧ i ∈ ((cfg0.win 2).blk t).view.set := by
  have hi0 : (i 0).val < 1024 := (i 0).isLt
  have hi1 : (i 1).val < 64 := (i 1).isLt
  have ht : (i 0).val / 512 * 64 + 63 < cfg0.N :=
    lt_of_lt_of_eq (by omega : (i 0).val / 512 * 64 + 63 < 128) (show (128 : ℕ) = cfg0.N from N_0.symm)
  refine ⟨⟨(i 0).val / 512 * 64 + 63, ht⟩, (flush0_2 _).mpr (by show ((i 0).val / 512 * 64 + 63) % 64 = 63; omega), ?_⟩
  obtain ⟨-, -, -, -, e4, e5⟩ := idx_facts ⟨(i 0).val / 512 * 64 + 63, ht⟩
  have e4' : win0_2.index (⟨(i 0).val / 512 * 64 + 63, ht⟩ : Fin cfg0.N) (0 : Fin 2) = (i 0).val / 512 := by
    rw [e4]; show ((i 0).val / 512 * 64 + 63) / 64 = _; omega
  rw [mem_blk]
  intro a
  match a with
  | ⟨0, _⟩ => show win0_2.index _ (0 : Fin 2) * 512 ≤ (i 0).val ∧ (i 0).val < win0_2.index _ (0 : Fin 2) * 512 + 512; omega
  | ⟨1, _⟩ => show win0_2.index _ (1 : Fin 2) * 64 ≤ (i 1).val ∧ (i 1).val < win0_2.index _ (1 : Fin 2) * 64 + 64; omega

/-- THE ARRAY after the run: the block of least squared differences. -/
theorem final (c : Dev nD) : (dats m 0 c).arrAt 2 cfg0.N = G m c :=
  (dats m 0 c).arrAt_eq_of_cover 2 (G m c) (fun t hf => flushed_eq m c t hf) (cover)

/-! ## The host operations after the region -/

open Cert.ReferenceIdeal.RefValue (lossTail maskTail)

/-- The first result: the tail's two means of the array the region leaves. -/
theorem tail_loss (c : Dev nD) :
    Pipeline.afterTail₀ cfgs (dats m) 0 (V0 m) [hostOps1] c main_v5 = lossTail ((dats m 0 c).arrAt 2 cfg0.N) := by
  unfold Pipeline.afterTail₀
  show StableHlo.after hostOps1 _ (Proc.devRef .tc main_v5) = _
  after_results
  exact congrArg lossTail (Pipeline.withArrays_arr spec0 launch0.win.arr_inj c _ _ 2)

/-- The second result: the tail's masked product of the first argument and the third. -/
theorem tail_mask (c : Dev nD) :
    Pipeline.afterTail₀ cfgs (dats m) 0 (V0 m) [hostOps1] c main_v13
      = maskTail (m ((c : Thread nD τ).loc main_arg0)) (m ((c : Thread nD τ).loc main_arg2)) := by
  unfold Pipeline.afterTail₀
  show StableHlo.after hostOps1 _ (Proc.devRef .tc main_v13) = _
  after_results
  exact congrArg₂ maskTail
    ((Pipeline.withArrays_arr spec0 launch0.win.arr_inj c _ _ 0).trans
      (((dats m 0 c).arrAt_in 0 rfl _).trans ((A_eq m c 0).trans (V_main_arg0 m c))))
    ((Pipeline.withArrays_of_ne _ c (V0 m c) _ main_arg2 (by exact (by decide : ∀ w, Pipeline.arrRef spec0 w ≠ main_arg2))).trans
      (V_main_arg2 m c))

/-! ## The run, read -/

/-- Every weakly fair execution of the kernel program ends with its first result at the tail's means of the least
    squared differences of its first two arguments, its second at the masked product of the first and third, its
    third the first argument, and the arguments unchanged. -/
theorem run : θ_run defs (onTc (τ := τ) (main (F := Ideal))) ⟨m, fun _ => 0, ρ⟩ (fun r => ∀ c : Dev nD,
      r.2.mem ((c.tc : Thread nD τ).loc main_v5)
        = lossTail (minSq (m ((c.tc : Thread nD τ).loc main_arg0)) (m ((c.tc : Thread nD τ).loc main_arg1)))
      ∧ r.2.mem ((c.tc : Thread nD τ).loc main_v13)
        = maskTail (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    have k0 : r.2.mem ((c.tc : Thread nD τ).loc main_arg0) = m ((c.tc : Thread nD τ).loc main_arg0) :=
      ((h c).1 0).trans (((dats m 0 c).arrAt_in 0 rfl _).trans ((A_eq m c 0).trans (V_main_arg0 m c)))
    ⟨((h c).2 main_v5 (Pipeline.mem_restRefs_of main_v5 (by decide) (by decide))).trans
        ((tail_loss m c).trans (congrArg lossTail (final m c))),
      ((h c).2 main_v13 (Pipeline.mem_restRefs_of main_v13 (by decide) (by decide))).trans (tail_mask m c),
      k0, k0,
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Val

end
-- ==== Proof.lean ====
/-
  The certificate of the running-minimum kernel against its reference.

  Both programs compute, for every code vector e[p, ·] and feature q, the least squared difference
  (z[n, q] - e[p, q])² over the 4096 rows n of z, from +inf, and then apply the same host operations: the mean over
  the 1024 code vectors, the mean over the 64 features, and the product of z with a prefix mask. The kernel meets
  the rows in order, tile by tile, in an accumulator it carries across grid points; the reference takes one
  minimum over all rows. Over the extended reals the minimum is commutative and associative, so the two orders
  give the same value; no finiteness of the inputs is used.

  The three frames: the kernel's, at the word-level and at the ideal instance, from the run of its body at every
  grid point (the same text at both instances); the reference's from its run with the results dropped. The ideal
  pass rewrote nothing, so the idealization conjunct is trivial.
-/
import proofs.«139658_j40853728919873_1_alg».proof.Defs
import proofs.«139658_j40853728919873_1_alg».proof.Proof.Gen.Kernel
import proofs.«139658_j40853728919873_1_alg».proof.Proof.Gen.KernelIdeal
import proofs.«139658_j40853728919873_1_alg».proof.Proof.Gen.ReferenceIdeal
import proofs.«139658_j40853728919873_1_alg».proof.Proof.Gen.Pre_finite_inputs
import proofs.«139658_j40853728919873_1_alg».proof.Proof.FrameBits
import proofs.«139658_j40853728919873_1_alg».proof.Proof.FrameIdeal
import proofs.«139658_j40853728919873_1_alg».proof.Proof.RefValue
import proofs.«139658_j40853728919873_1_alg».proof.Proof.ValueIdeal
import Idealize.ShloMosaic.Adequacy
import Idealize.ShloMosaic.Init

noncomputable section

namespace Cert.Proof

open Idealize.ShloMosaic Idealize.SL.Sem
open Cert.ReferenceIdeal.RefValue (lossTail maskTail)

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  fun m' ρ' _ => Cert.ReferenceIdeal.RefValue.frame m' ρ',
  trivial,
  fun m ρ m' ρ' _ hagree =>
    ⟨fun c => lossTail (Cert.MinSq.minSq (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
      fun c => maskTail (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
      fun c => m ((c.tc : Thread Cert.KernelIdeal.nD Cert.KernelIdeal.τ).loc Cert.KernelIdeal.main_arg0),
      Cert.KernelIdeal.Val.run m ρ,
      (θ_run (Cert.ReferenceIdeal.defs (F := Ideal)) _ _).mono (fun _ h c => by
          have hr := h c
          obtain ⟨h0, h1, h2⟩ := hagree c
          dsimp only
          rw [← h0, ← h1, ← h2]
          exact hr)
        (Cert.ReferenceIdeal.RefValue.run m' ρ')⟩⟩

end Cert.Proof

end
